-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 75
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x32, .f32⟩
  | .hbm, ⟨74, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S1x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S64x32, .f32⟩
  | .local _ .vmem, ⟨31, _⟩ => ⟨S1x32, .f32⟩
  | .local _ .vmem, ⟨32, _⟩ => ⟨S5000x1, .f32⟩
  | .local _ .vmem, ⟨33, _⟩ => ⟨S5000x1, .f32⟩
  | .local _ .vmem, ⟨34, _⟩ => ⟨S5000x32, .f32⟩
  | .local _ .vmem, ⟨35, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x1, .f32⟩
  | .hbm, ⟨96, _⟩ => ⟨S100000x64, .f32⟩
  | .hbm, ⟨97, _⟩ => ⟨S100000x64, .f32⟩
  | .hbm, ⟨98, _⟩ => ⟨S100000x32, .f32⟩
  | .hbm, ⟨99, _⟩ => ⟨S1x32, .f32⟩
  | .hbm, ⟨100, _⟩ => ⟨S100000x32, .f32⟩
  | .hbm, ⟨101, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel program's run, with every buffer it leaves named.

  The program is four kernels among four stretches of array operations. Its run is followed boundary by boundary:
  after a stretch of array operations every buffer holds the operations' results on what the boundary before held;
  after a kernel the kernel's result array holds what its twenty grid points wrote back and every other buffer what
  it held before. Here the run is stated with that last boundary's contents in its conclusion — every buffer that
  lives through the whole program ends holding them — so that the result array, and with it the argument arrays,
  can be read off it.
-/
import proofs.«141745_j58909771432681_1_alg».proof.Proof.KernelIdealFrameP

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each buffer
    that lives through the whole program holds the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Gcn.KernelRun

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Layers.lean ====
/-
  One graph-convolution layer as functions of whole arrays, and what each holds at an entry.

  A layer takes the aggregated messages `agg` (one row of 64 features per node), scales row `P` by the node's
  in-degree factor `d (P)`, multiplies by the weight matrix, adds the bias to every row, and — in the two hidden
  layers — clips at zero and scales row `P` by the node's out-degree factor `s (P)`, ready to be sent along the
  edges again:
      hidden (P, q) = max (Σ_k (agg (P, k) · d (P)) · W (k, q) + b (q), 0) · s (P),
      last   (P, q) =      Σ_k (agg (P, k) · d (P)) · W (k, q) + b (q).
  Before the first layer the input features are scaled the same way: scaleRows (P, q) = x (P, q) · s (P).
  The per-node factors come as columns `[N, 1]` and the bias as a row `[1, n]`; the functions are spelt with the
  host operations a plain array program uses (a column repeated along the rows, a row repeated down the
  columns, one matrix product over all 100000 rows), so that such a program's result is one of them on the nose.
  The sums are finite sums of extended reals: nothing is rounded and no order of summation is left in them.
-/
import proofs.«141745_j58909771432681_1_alg».proof.Proof.Gen.ReferenceIdeal
import proofs.«141745_j58909771432681_1_alg».proof.Proof.LibColumnInDim
import proofs.«141745_j58909771432681_1_alg».proof.Proof.LibRowInDim
import proofs.«141745_j58909771432681_1_alg».proof.Proof.LibContractPlain
import Idealize.ShloMosaic.Lib.ValueIdx
import Idealize.ShloMosaic.Lib.Pipeline.Value
import Idealize.ShloMosaic.PureOps.Ideal

noncomputable section

namespace Cert.Gcn

open Idealize.ShloMosaic Idealize.ShloMosaic.ValueIdx Cert.ReferenceIdeal Cert.ReferenceIdeal.Gen

/-- A per-node factor, given as the column `[N, 1]`, repeated over the 64 feature columns. -/
def spread (s2 : FVec Ideal S100000x1 .f32) : FVec Ideal S100000x64 .f32 :=
  broadcastInDim S100000x64 ![0, 1] bcast_S100000x1_S100000x64_0_1 s2

/-- The features with row `P` scaled by the node's factor. -/
def scaleRows (x : FVec Ideal S100000x64 .f32) (s2 : FVec Ideal S100000x1 .f32) : FVec Ideal S100000x64 .f32 :=
  mulf x (spread s2)

/-- The zero the hidden layers clip at, as a full matrix. -/
def zeros : FVec Ideal S100000x64 .f32 :=
  broadcastInDim S100000x64 ![] bcast_S_S100000x64 (constant (F := Ideal) S_ .f32 0x00000000#32)

/-- Degree-scaled messages times a 64×64 weight matrix, plus the bias row. -/
def affine64 (agg : FVec Ideal S100000x64 .f32) (d2 : FVec Ideal S100000x1 .f32) (W : FVec Ideal S64x64 .f32)
    (b2 : FVec Ideal S1x64 .f32) : FVec Ideal S100000x64 .f32 :=
  addf (Host.dotGeneral dot_S100000x64_S64x64_S100000x64_1_0_0_1_n_n none (mulf agg (spread d2)) W)
    (broadcastInDim S100000x64 ![0, 1] bcast_S1x64_S100000x64_0_1 b2)

/-- A hidden layer: the affine map, clipped at zero, row `P` scaled for the next round of messages. -/
def hidden (agg : FVec Ideal S100000x64 .f32) (d2 : FVec Ideal S100000x1 .f32) (W : FVec Ideal S64x64 .f32)
    (b2 : FVec Ideal S1x64 .f32) (s2 : FVec Ideal S100000x1 .f32) : FVec Ideal S100000x64 .f32 :=
  mulf (maximumf (affine64 agg d2 W b2) zeros) (spread s2)

/-- The last layer: degree-scaled messages times the 64×32 weight matrix, plus the bias row. -/
def last (agg : FVec Ideal S100000x64 .f32) (d2 : FVec Ideal S100000x1 .f32) (W : FVec Ideal S64x32 .f32)
    (b2 : FVec Ideal S1x32 .f32) : FVec Ideal S100000x32 .f32 :=
  addf (Host.dotGeneral dot_S100000x64_S64x32_S100000x32_1_0_0_1_n_n none (mulf agg (spread d2)) W)
    (broadcastInDim S100000x32 ![0, 1] bcast_S1x32_S100000x32_0_1 b2)

/-! ## Entry by entry -/

theorem spread_apply (s2 : FVec Ideal S100000x1 .f32) (P : Fin 100000) (q : Fin 64) :
    spread s2 (ix2 P q) = s2 (ix2 P (0 : Fin 1)) :=
  Cert.Lib.ColumnInDim.spread_apply (by decide) bcast_S100000x1_S100000x64_0_1 s2 P q

theorem scaleRows_apply (x : FVec Ideal S100000x64 .f32) (s2 : FVec Ideal S100000x1 .f32) (P : Fin 100000) (q : Fin 64) :
    scaleRows x s2 (ix2 P q) = x (ix2 P q) * s2 (ix2 P (0 : Fin 1)) := by
  unfold scaleRows
  rw [mulf_apply, spread_apply]

theorem zeros_apply (i : S100000x64.Idx) : zeros i = Ideal.ofBits .f32 0x00000000#32 := by
  unfold zeros
  exact (broadcastInDim_apply _ bcast_S_S100000x64 _ i (fun a => a.elim0) (fun a => a.elim0)).trans (constant_apply _ _)

theorem affine64_apply (agg : FVec Ideal S100000x64 .f32) (d2 : FVec Ideal S100000x1 .f32) (W : FVec Ideal S64x64 .f32)
    (b2 : FVec Ideal S1x64 .f32) (P : Fin 100000) (q : Fin 64) :
    affine64 agg d2 W b2 (ix2 P q)
      = (∑ k : Fin 64, (agg (ix2 P k) * d2 (ix2 P (0 : Fin 1))) * W (ix2 k q)) + b2 (ix2 (0 : Fin 1) q) := by
  unfold affine64
  rw [addf_apply, Cert.Lib.ContractPlain.hostDot_apply dot_S100000x64_S64x64_S100000x64_1_0_0_1_n_n rfl none _ _ P q,
    Cert.Lib.RowInDim.repeat_apply (by decide) bcast_S1x64_S100000x64_0_1 b2 P q]
  simp only [mulf_apply, spread_apply]

theorem hidden_apply (agg : FVec Ideal S100000x64 .f32) (d2 : FVec Ideal S100000x1 .f32) (W : FVec Ideal S64x64 .f32)
    (b2 : FVec Ideal S1x64 .f32) (s2 : FVec Ideal S100000x1 .f32) (P : Fin 100000) (q : Fin 64) :
    hidden agg d2 W b2 s2 (ix2 P q)
      = max ((∑ k : Fin 64, (agg (ix2 P k) * d2 (ix2 P (0 : Fin 1))) * W (ix2 k q)) + b2 (ix2 (0 : Fin 1) q))
          (Ideal.ofBits .f32 0x00000000#32) * s2 (ix2 P (0 : Fin 1)) := by
  unfold hidden
  rw [mulf_apply, maximumf_apply, spread_apply, zeros_apply, affine64_apply]

theorem last_apply (agg : FVec Ideal S100000x64 .f32) (d2 : FVec Ideal S100000x1 .f32) (W : FVec Ideal S64x32 .f32)
    (b2 : FVec Ideal S1x32 .f32) (P : Fin 100000) (q : Fin 32) :
    last agg d2 W b2 (ix2 P q)
      = (∑ k : Fin 64, (agg (ix2 P k) * d2 (ix2 P (0 : Fin 1))) * W (ix2 k q)) + b2 (ix2 (0 : Fin 1) q) := by
  unfold last
  rw [addf_apply, Cert.Lib.ContractPlain.hostDot_apply dot_S100000x64_S64x32_S100000x32_1_0_0_1_n_n rfl none _ _ P q,
    Cert.Lib.RowInDim.repeat_apply (by decide) bcast_S1x32_S100000x32_0_1 b2 P q]
  simp only [mulf_apply, spread_apply]

end Cert.Gcn

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body.lean ====
/-
  What each kernel body computes, entry by entry, at the ideal values.

  A body works on one block of 5000 consecutive nodes. The first kernel scales row `p` of its block of features
  by the block's out-degree factor of that node: entry (p, q) is x (p, q) · s (p). The three layer kernels scale
  row `p` of the block of aggregated messages by the in-degree factor d (p), multiply by the whole weight matrix
  (the product accumulated into zeros, its operands passed through the 16-bit float format, which changes no ideal
  value), add the bias row to every row, and — the two hidden ones — clip at zero and scale row `p` by s (p):
      max (Σ_k (a (p, k) · d (p)) · W (k, q) + b (q), 0) · s (p),     and without clip and scale for the last.
  The sums are finite sums of extended reals; the contracted coordinate k runs over the 64 features.
-/
import proofs.«141745_j58909771432681_1_alg».proof.Proof.Gen.KernelIdeal.Skeleton
import proofs.«141745_j58909771432681_1_alg».proof.Proof.LibKeepdims
import proofs.«141745_j58909771432681_1_alg».proof.Proof.LibContractPlain
import Idealize.ShloMosaic.Lib.ValueIdx
import Idealize.ShloMosaic.Lib.ValueLayout
import Idealize.ShloMosaic.Lib.Pipeline.Value
import Idealize.ShloMosaic.PureOps.Ideal

noncomputable section

namespace Cert.Gcn.Body

open Idealize.ShloMosaic Idealize.ShloMosaic.ValueIdx Cert.KernelIdeal Cert.KernelIdeal.Gen

/-- The scaling kernel: entry (p, q) of its stored block is x (p, q) · s (p). -/
theorem scale_apply (x : Vec Ideal S5000x64 .f32) (s : Vec Ideal S5000x1 .f32) (p : Fin 5000) (q : Fin 64) :
    k0_pay1 x s (ix2 p q) = x (ix2 p q) * s (ix2 p (0 : Fin 1)) := by
  unfold k0_pay1
  rw [mulf_apply, shapeCast_self, Cert.Keepdims.broadcastTo_a1_ab_apply]

/-- A row of degree-scaled messages against a column of a 64-column weight matrix, plus the bias entry: what the
    layer kernels hold before clipping. -/
theorem affine64_apply (a : Vec Ideal S5000x64 .f32) (d : Vec Ideal S5000x1 .f32) (W : Vec Ideal S64x64 .f32)
    (b : Vec Ideal S1x64 .f32) (p : Fin 5000) (q : Fin 64) :
    addf (matmul dot_S5000x64_S64x64_S5000x64_1_0_0_1_n_n none
        (truncf .bf16 (mulf (shapeCast S5000x64 a shapeCasts_S5000x64_S5000x64)
          (broadcastTo S5000x64 (shapeCast S5000x1 d shapeCasts_S5000x1_S5000x1) broadcasts_S5000x1_S5000x64)) bitsLt_bf16_f32)
        (truncf .bf16 W bitsLt_bf16_f32) (constant (F := Ideal) S5000x64 .f32 0x00000000#32))
      (broadcastTo S5000x64 (shapeCast S1x64 b shapeCasts_S1x64_S1x64) broadcasts_S1x64_S5000x64) (ix2 p q)
      = (∑ k : Fin 64, (a (ix2 p k) * d (ix2 p (0 : Fin 1))) * W (ix2 k q)) + b (ix2 (0 : Fin 1) q) := by
  rw [addf_apply, Cert.Lib.ContractPlain.matmulZero_apply dot_S5000x64_S64x64_S5000x64_1_0_0_1_n_n rfl none _ _ p q, shapeCast_self,
    broadcastTo_1b_ab_apply]
  simp only [truncf_apply, mulf_apply, shapeCast_self, Cert.Keepdims.broadcastTo_a1_ab_apply]

/-- The first hidden layer's kernel. -/
theorem hidden1_apply (a : Vec Ideal S5000x64 .f32) (d : Vec Ideal S5000x1 .f32) (W : Vec Ideal S64x64 .f32)
    (b : Vec Ideal S1x64 .f32) (s : Vec Ideal S5000x1 .f32) (p : Fin 5000) (q : Fin 64) :
    k1_pay1 a d W b s (ix2 p q)
      = max ((∑ k : Fin 64, (a (ix2 p k) * d (ix2 p (0 : Fin 1))) * W (ix2 k q)) + b (ix2 (0 : Fin 1) q))
          (Ideal.ofBits .f32 0x00000000#32) * s (ix2 p (0 : Fin 1)) := by
  unfold k1_pay1
  rw [mulf_apply, maximumf_apply, affine64_apply, shapeCast_self, Cert.Keepdims.broadcastTo_a1_ab_apply]
  rfl

/-- The second hidden layer's kernel: the same body. -/
theorem hidden2_apply (a : Vec Ideal S5000x64 .f32) (d : Vec Ideal S5000x1 .f32) (W : Vec Ideal S64x64 .f32)
    (b : Vec Ideal S1x64 .f32) (s : Vec Ideal S5000x1 .f32) (p : Fin 5000) (q : Fin 64) :
    k2_pay1 a d W b s (ix2 p q)
      = max ((∑ k : Fin 64, (a (ix2 p k) * d (ix2 p (0 : Fin 1))) * W (ix2 k q)) + b (ix2 (0 : Fin 1) q))
          (Ideal.ofBits .f32 0x00000000#32) * s (ix2 p (0 : Fin 1)) := by
  unfold k2_pay1
  rw [mulf_apply, maximumf_apply, affine64_apply, shapeCast_self, Cert.Keepdims.broadcastTo_a1_ab_apply]
  rfl

/-- The last layer's kernel: 32 output columns, no clip, no scale. -/
theorem last_apply (a : Vec Ideal S5000x64 .f32) (d : Vec Ideal S5000x1 .f32) (W : Vec Ideal S64x32 .f32)
    (b : Vec Ideal S1x32 .f32) (p : Fin 5000) (q : Fin 32) :
    k3_pay1 a d W b (ix2 p q)
      = (∑ k : Fin 64, (a (ix2 p k) * d (ix2 p (0 : Fin 1))) * W (ix2 k q)) + b (ix2 (0 : Fin 1) q) := by
  unfold k3_pay1
  rw [addf_apply, Cert.Lib.ContractPlain.matmulZero_apply dot_S5000x64_S64x32_S5000x32_1_0_0_1_n_n rfl none _ _ p q, shapeCast_self,
    broadcastTo_1b_ab_apply]
  simp only [truncf_apply, mulf_apply, shapeCast_self, Cert.Keepdims.broadcastTo_a1_ab_apply]

end Cert.Gcn.Body

end
-- ==== Proof.Blocks0.lean ====
/-
  The row-scaling kernel, from blocks to the whole array.

  The grid has 20 points; point `t` works on rows 5000·t … 5000·t + 4999 of the features (all 64 columns) and of the
  column of out-degree factors, and writes back the same rows of the result. Row `r` of the array therefore lies
  in exactly the block of point r / 5000, and what that point writes at (r, q) is x (r, q) · s (r): the array the
  kernel leaves is the row-scaled features, whatever the arrays held when the kernel was entered.
-/
import proofs.«141745_j58909771432681_1_alg».proof.Proof.KernelIdealFrameP
import proofs.«141745_j58909771432681_1_alg».proof.Proof.Gen.KernelIdeal.Points
import proofs.«141745_j58909771432681_1_alg».proof.Proof.Layers
import proofs.«141745_j58909771432681_1_alg».proof.Proof.Body
import Idealize.ShloMosaic.Lib.Pipeline.Value
import Idealize.ShloMosaic.Lib.ValueIdx

set_option maxRecDepth 16384

noncomputable section

namespace Cert.Gcn.Blocks0

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The three windows move together: at point `t` each is on block row `t`, block column 0. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- Entry (p, q) of point `t`'s block of the features is entry (5000·t + p, q) of the array. -/
theorem emb_x (t : Fin cfg0.N) (p : Fin 5000) (q : Fin 64) (h : t.val * 5000 + p.val < 100000) :
    ((cfg0.win 0).blk t).view.emb (ix2 p q) = ix2 (⟨t.val * 5000 + p.val, h⟩ : Fin 100000) q := by
  obtain ⟨e0, e1, -⟩ := block_of_point t
  funext a; apply Fin.ext
  match a with
  | ⟨0, _⟩ => show win0_0.index t (0 : Fin 2) * 5000 + 1 * p.val = t.val * 5000 + p.val; omega
  | ⟨1, _⟩ => show win0_0.index t (1 : Fin 2) * 64 + 1 * q.val = q.val; omega

/-- Entry (p, 0) of point `t`'s block of the factor column is entry (5000·t + p, 0) of the column. -/
theorem emb_s (t : Fin cfg0.N) (p : Fin 5000) (h : t.val * 5000 + p.val < 100000) :
    ((cfg0.win 1).blk t).view.emb (ix2 p (0 : Fin 1)) = ix2 (⟨t.val * 5000 + p.val, h⟩ : Fin 100000) (0 : Fin 1) := by
  obtain ⟨-, -, e0, e1, -⟩ := block_of_point t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

/-- Entry (p, q) of point `t`'s block of the result is entry (5000·t + p, q) of the array. -/
theorem emb_out (t : Fin cfg0.N) (p : Fin 5000) (q : Fin 64) (h : t.val * 5000 + p.val < 100000) :
    ((cfg0.win 2).blk t).view.emb (ix2 p q) = ix2 (⟨t.val * 5000 + p.val, h⟩ : Fin 100000) q := by
  obtain ⟨-, -, -, -, e0, e1⟩ := block_of_point t
  funext a; apply Fin.ext
  match a with
  | ⟨0, _⟩ => show win0_2.index t (0 : Fin 2) * 5000 + 1 * p.val = t.val * 5000 + p.val; omega
  | ⟨1, _⟩ => show win0_2.index t (1 : Fin 2) * 64 + 1 * q.val = q.val; omega

/-- Point `t`'s block of the features, at (p, q), is the array at (5000·t + p, q). -/
theorem blk_x (c : Dev nD) (t : Fin cfg0.N) (p : Fin 5000) (q : Fin 64) (h : t.val * 5000 + p.val < 100000) :
    iblk0 V c 0 t (ix2 p q)
      = (V c main_arg0 : FVec Ideal S100000x64 .f32) (ix2 (⟨t.val * 5000 + p.val, h⟩ : Fin 100000) q) := by
  show (V c main_arg0 : FVec Ideal S100000x64 .f32) (((cfg0.win 0).blk t).view.emb (ix2 p q)) = _
  rw [emb_x t p q h]

/-- Point `t`'s block of the factor column, at (p, 0), is the column at (5000·t + p, 0). -/
theorem blk_s (c : Dev nD) (t : Fin cfg0.N) (p : Fin 5000) (h : t.val * 5000 + p.val < 100000) :
    iblk0 V c 1 t (ix2 p (0 : Fin 1))
      = (V c main_v13 : FVec Ideal S100000x1 .f32) (ix2 (⟨t.val * 5000 + p.val, h⟩ : Fin 100000) (0 : Fin 1)) := by
  show (V c main_v13 : FVec Ideal S100000x1 .f32) (((cfg0.win 1).blk t).view.emb (ix2 p (0 : Fin 1))) = _
  rw [emb_s t p h]

/-- What point `t` writes back is block `t` of the row-scaled features. -/
theorem flushed_eq (c : Dev nD) (t : Fin cfg0.N) :
    (dat0 V c).flushed 2 t
      = ((cfg0.win 2).blk t).view.read (Elt Ideal) (Cert.Gcn.scaleRows (V c main_arg0) (V c main_v13)) := by
  show (cfg0.win 2).cut (grid0.coords t) ((dat0 V c).after 2 t) = _
  rw [after0_2]
  unfold out0_2
  rw [View.canon_unit_zero origin]
  simp only [View.ld_unit_zero (S := S5000x64) origin, View.ld_unit_zero (S := S5000x1) origin]
  funext j
  obtain ⟨p, q, rfl⟩ : ∃ (p : Fin 5000) (q : Fin 64), j = ix2 p q := ⟨j 0, j 1, eq_ix2 j⟩
  have hrow : t.val * 5000 + p.val < 100000 := by have := point_lt t; have := p.isLt; omega
  show k0_pay1 (iblk0 V c 0 t) (iblk0 V c 1 t) (ix2 p q)
    = Cert.Gcn.scaleRows (V c main_arg0) (V c main_v13) (((cfg0.win 2).blk t).view.emb (ix2 p q))
  rw [emb_out t p q hrow, Cert.Gcn.scaleRows_apply]
  refine (Cert.Gcn.Body.scale_apply _ _ p q).trans ?_
  rw [blk_x V c t p q hrow, blk_s V c t p hrow]

/-- An index of the result array is in point `t`'s block iff each coordinate is in the block's range on its axis. -/
theorem mem_blk (t : Fin cfg0.N) (i : S100000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- Every entry of the result array is in the block of the point its row falls to. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := lt_of_lt_of_eq (by omega : (i 0).val / 5000 < 20) N_0.symm
  obtain ⟨-, -, -, -, e0, e1⟩ := block_of_point ⟨(i 0).val / 5000, hN⟩
  have e0' : win0_2.index ⟨(i 0).val / 5000, hN⟩ (0 : Fin 2) = (i 0).val / 5000 := e0
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 64 ≤ (i 1).val
      ∧ (i 1).val < win0_2.index ⟨(i 0).val / 5000, hN⟩ (1 : Fin 2) * 64 + 64
    omega

/-- The array the row-scaling kernel leaves: the features, row `r` scaled by the factor of node `r`. -/
theorem arr (c : Dev nD) :
    (dat0 V c).arrAt 2 cfg0.N = Cert.Gcn.scaleRows (V c main_arg0) (V c main_v13) :=
  (dat0 V c).arrAt_eq_of_cover 2 _ (fun t _ => flushed_eq V c t) cover

end Cert.Gcn.Blocks0

end
-- ==== Proof.Blocks1.lean ====
/-
  The first hidden layer's kernel, from blocks to the whole array.

  The grid has 20 points; point `t` works on rows 5000·t … 5000·t + 4999 of the aggregated messages and of the two
  columns of degree factors, on the whole weight matrix and the whole bias row (the same at every point), and writes
  back the same rows of the result. Row `r` of the result lies in exactly the block of point r / 5000, and what
  that point writes at (r, q) is the layer's value there, a sum over the 64 features of row `r` alone: the array
  the kernel leaves is the hidden layer of the arrays it was entered with.
-/
import proofs.«141745_j58909771432681_1_alg».proof.Proof.KernelIdealFrameP
import proofs.«141745_j58909771432681_1_alg».proof.Proof.Gen.KernelIdeal.Points
import proofs.«141745_j58909771432681_1_alg».proof.Proof.Layers
import proofs.«141745_j58909771432681_1_alg».proof.Proof.Body
import Idealize.ShloMosaic.Lib.Pipeline.Value
import Idealize.ShloMosaic.Lib.ValueIdx

set_option maxRecDepth 16384

noncomputable section

namespace Cert.Gcn.Blocks1

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The row-blocked windows (messages, the two factor columns, the result) are on block row `t` at point `t`; the
    weight matrix and the bias row are one block each. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Entry (p, j) of point `t`'s block of the messages is entry (5000·t + p, j) of the array. -/
theorem emb_agg (t : Fin cfg1.N) (p : Fin 5000) (j : Fin 64) (h : t.val * 5000 + p.val < 100000) :
    ((cfg1.win 0).blk t).view.emb (ix2 p j) = ix2 (⟨t.val * 5000 + p.val, h⟩ : Fin 100000) j := by
  obtain ⟨e0, e1, -⟩ := block_of_point t
  funext a; apply Fin.ext
  match a with
  | ⟨0, _⟩ => show win1_0.index t (0 : Fin 2) * 5000 + 1 * p.val = t.val * 5000 + p.val; omega
  | ⟨1, _⟩ => show win1_0.index t (1 : Fin 2) * 64 + 1 * j.val = j.val; omega

/-- Entry (p, 0) of point `t`'s block of the in-degree column is entry (5000·t + p, 0) of the column. -/
theorem emb_d (t : Fin cfg1.N) (p : Fin 5000) (h : t.val * 5000 + p.val < 100000) :
    ((cfg1.win 1).blk t).view.emb (ix2 p (0 : Fin 1)) = ix2 (⟨t.val * 5000 + p.val, h⟩ : Fin 100000) (0 : Fin 1) := by
  obtain ⟨-, -, e0, e1, -⟩ := block_of_point t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- The weight matrix's one block is the matrix. -/
theorem emb_w (t : Fin cfg1.N) (j : Fin 64) (q : Fin 64) :
    ((cfg1.win 2).blk t).view.emb (ix2 j q) = ix2 j q := by
  obtain ⟨-, -, -, -, e0, e1, -⟩ := block_of_point t
  funext a; apply Fin.ext
  match a with
  | ⟨0, _⟩ => show win1_2.index t (0 : Fin 2) * 64 + 1 * j.val = j.val; omega
  | ⟨1, _⟩ => show win1_2.index t (1 : Fin 2) * 64 + 1 * q.val = q.val; omega

/-- The bias row's one block is the row. -/
theorem emb_b (t : Fin cfg1.N) (q : Fin 64) :
    ((cfg1.win 3).blk t).view.emb (ix2 (0 : Fin 1) q) = ix2 (0 : Fin 1) q := by
  obtain ⟨-, -, -, -, -, -, e0, e1, -⟩ := block_of_point t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Entry (p, 0) of point `t`'s block of the out-degree column is entry (5000·t + p, 0) of the column. -/
theorem emb_s (t : Fin cfg1.N) (p : Fin 5000) (h : t.val * 5000 + p.val < 100000) :
    ((cfg1.win 4).blk t).view.emb (ix2 p (0 : Fin 1)) = ix2 (⟨t.val * 5000 + p.val, h⟩ : Fin 100000) (0 : Fin 1) := by
  obtain ⟨-, -, -, -, -, -, -, -, e0, e1, -⟩ := block_of_point t
  funext a; apply Fin.ext
  match a with
  | ⟨0, _⟩ => show win1_4.index t (0 : Fin 2) * 5000 + 1 * p.val = t.val * 5000 + p.val; omega
  | ⟨1, _⟩ => show win1_4.index t (1 : Fin 2) * 1 + 1 * 0 = 0; omega

/-- Entry (p, q) of point `t`'s block of the result is entry (5000·t + p, q) of the array. -/
theorem emb_out (t : Fin cfg1.N) (p : Fin 5000) (q : Fin 64) (h : t.val * 5000 + p.val < 100000) :
    ((cfg1.win 5).blk t).view.emb (ix2 p q) = ix2 (⟨t.val * 5000 + p.val, h⟩ : Fin 100000) q := by
  obtain ⟨-, -, -, -, -, -, -, -, -, -, e0, e1⟩ := block_of_point t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

/-- Point `t`'s block of the messages, at (p, j), is the array at (5000·t + p, j). -/
theorem blk_agg (c : Dev nD) (t : Fin cfg1.N) (p : Fin 5000) (j : Fin 64) (h : t.val * 5000 + p.val < 100000) :
    iblk1 V c 0 t (ix2 p j)
      = (V c main_v25 : FVec Ideal S100000x64 .f32) (ix2 (⟨t.val * 5000 + p.val, h⟩ : Fin 100000) j) := by
  show (V c main_v25 : FVec Ideal S100000x64 .f32) (((cfg1.win 0).blk t).view.emb (ix2 p j)) = _
  rw [emb_agg t p j h]

/-- Point `t`'s block of the in-degree column, at (p, 0), is the column at (5000·t + p, 0). -/
theorem blk_d (c : Dev nD) (t : Fin cfg1.N) (p : Fin 5000) (h : t.val * 5000 + p.val < 100000) :
    iblk1 V c 1 t (ix2 p (0 : Fin 1))
      = (V c main_v14 : FVec Ideal S100000x1 .f32) (ix2 (⟨t.val * 5000 + p.val, h⟩ : Fin 100000) (0 : Fin 1)) := by
  show (V c main_v14 : FVec Ideal S100000x1 .f32) (((cfg1.win 1).blk t).view.emb (ix2 p (0 : Fin 1))) = _
  rw [emb_d t p h]

/-- The weight matrix's block is the matrix. -/
theorem blk_w (c : Dev nD) (t : Fin cfg1.N) (j : Fin 64) (q : Fin 64) :
    iblk1 V c 2 t (ix2 j q) = (V c main_arg3 : FVec Ideal S64x64 .f32) (ix2 j q) := by
  show (V c main_arg3 : FVec Ideal S64x64 .f32) (((cfg1.win 2).blk t).view.emb (ix2 j q)) = _
  rw [emb_w t j q]

/-- The bias row's block is the row. -/
theorem blk_b (c : Dev nD) (t : Fin cfg1.N) (q : Fin 64) :
    iblk1 V c 3 t (ix2 (0 : Fin 1) q) = (V c main_v26 : FVec Ideal S1x64 .f32) (ix2 (0 : Fin 1) q) := by
  show (V c main_v26 : FVec Ideal S1x64 .f32) (((cfg1.win 3).blk t).view.emb (ix2 (0 : Fin 1) q)) = _
  rw [emb_b t q]

/-- Point `t`'s block of the out-degree column, at (p, 0), is the column at (5000·t + p, 0). -/
theorem blk_s (c : Dev nD) (t : Fin cfg1.N) (p : Fin 5000) (h : t.val * 5000 + p.val < 100000) :
    iblk1 V c 4 t (ix2 p (0 : Fin 1))
      = (V c main_v13 : FVec Ideal S100000x1 .f32) (ix2 (⟨t.val * 5000 + p.val, h⟩ : Fin 100000) (0 : Fin 1)) := by
  show (V c main_v13 : FVec Ideal S100000x1 .f32) (((cfg1.win 4).blk t).view.emb (ix2 p (0 : Fin 1))) = _
  rw [emb_s t p h]

/-- What point `t` writes back is block `t` of the hidden layer of the arrays the kernel was entered with. -/
theorem flushed_eq (c : Dev nD) (t : Fin cfg1.N) :
    (dat1 V c).flushed 5 t
      = ((cfg1.win 5).blk t).view.read (Elt Ideal)
          (Cert.Gcn.hidden (V c main_v25) (V c main_v14) (V c main_arg3) (V c main_v26) (V c main_v13)) := by
  show (cfg1.win 5).cut (grid1.coords t) ((dat1 V c).after 5 t) = _
  rw [after1_5]
  unfold out1_5
  rw [View.canon_unit_zero origin]
  simp only [View.ld_unit_zero (S := S5000x64) origin, View.ld_unit_zero (S := S5000x1) origin,
    View.ld_unit_zero (S := S64x64) origin, View.ld_unit_zero (S := S1x64) origin]
  funext y
  obtain ⟨p, q, rfl⟩ : ∃ (p : Fin 5000) (q : Fin 64), y = ix2 p q := ⟨y 0, y 1, eq_ix2 y⟩
  have hrow : t.val * 5000 + p.val < 100000 := by have := point_lt t; have := p.isLt; omega
  show k1_pay1 (iblk1 V c 0 t) (iblk1 V c 1 t) (iblk1 V c 2 t) (iblk1 V c 3 t) (iblk1 V c 4 t) (ix2 p q)
    = Cert.Gcn.hidden (V c main_v25) (V c main_v14) (V c main_arg3) (V c main_v26) (V c main_v13)
        (((cfg1.win 5).blk t).view.emb (ix2 p q))
  rw [emb_out t p q hrow, Cert.Gcn.hidden_apply]
  refine (Cert.Gcn.Body.hidden1_apply _ _ _ _ _ p q).trans ?_
  rw [blk_d V c t p hrow, blk_b V c t q, blk_s V c t p hrow]
  simp only [blk_agg V c t p _ hrow, blk_w V c t _ q]

/-- An index of the result array is in point `t`'s block iff each coordinate is in the block's range on its axis. -/
theorem mem_blk (t : Fin cfg1.N) (i : S100000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- Every entry of the result array is in the block of the point its row falls to. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  obtain ⟨-, -, -, -, -, -, -, -, -, -, e0, e1⟩ := block_of_point ⟨(i 0).val / 5000, hN⟩
  have e0' : win1_5.index ⟨(i 0).val / 5000, hN⟩ (0 : Fin 2) = (i 0).val / 5000 := e0
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 64 ≤ (i 1).val
      ∧ (i 1).val < win1_5.index ⟨(i 0).val / 5000, hN⟩ (1 : Fin 2) * 64 + 64
    omega

/-- The array the kernel leaves: the hidden layer of the arrays it was entered with. -/
theorem arr (c : Dev nD) :
    (dat1 V c).arrAt 5 cfg1.N
      = Cert.Gcn.hidden (V c main_v25) (V c main_v14) (V c main_arg3) (V c main_v26) (V c main_v13) :=
  (dat1 V c).arrAt_eq_of_cover 5 _ (fun t _ => flushed_eq V c t) cover

end Cert.Gcn.Blocks1

end
-- ==== Proof.Blocks2.lean ====
/-
  The second hidden layer's kernel, from blocks to the whole array.

  The grid has 20 points; point `t` works on rows 5000·t … 5000·t + 4999 of the aggregated messages and of the two
  columns of degree factors, on the whole weight matrix and the whole bias row (the same at every point), and writes
  back the same rows of the result. Row `r` of the result lies in exactly the block of point r / 5000, and what
  that point writes at (r, q) is the layer's value there, a sum over the 64 features of row `r` alone: the array
  the kernel leaves is the hidden layer of the arrays it was entered with.
-/
import proofs.«141745_j58909771432681_1_alg».proof.Proof.KernelIdealFrameP
import proofs.«141745_j58909771432681_1_alg».proof.Proof.Gen.KernelIdeal.Points
import proofs.«141745_j58909771432681_1_alg».proof.Proof.Layers
import proofs.«141745_j58909771432681_1_alg».proof.Proof.Body
import Idealize.ShloMosaic.Lib.Pipeline.Value
import Idealize.ShloMosaic.Lib.ValueIdx

set_option maxRecDepth 16384

noncomputable section

namespace Cert.Gcn.Blocks2

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The row-blocked windows (messages, the two factor columns, the result) are on block row `t` at point `t`; the
    weight matrix and the bias row are one block each. -/
theorem block_of_point : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

/-- Entry (p, j) of point `t`'s block of the messages is entry (5000·t + p, j) of the array. -/
theorem emb_agg (t : Fin cfg2.N) (p : Fin 5000) (j : Fin 64) (h : t.val * 5000 + p.val < 100000) :
    ((cfg2.win 0).blk t).view.emb (ix2 p j) = ix2 (⟨t.val * 5000 + p.val, h⟩ : Fin 100000) j := by
  obtain ⟨e0, e1, -⟩ := block_of_point t
  funext a; apply Fin.ext
  match a with
  | ⟨0, _⟩ => show win2_0.index t (0 : Fin 2) * 5000 + 1 * p.val = t.val * 5000 + p.val; omega
  | ⟨1, _⟩ => show win2_0.index t (1 : Fin 2) * 64 + 1 * j.val = j.val; omega

/-- Entry (p, 0) of point `t`'s block of the in-degree column is entry (5000·t + p, 0) of the column. -/
theorem emb_d (t : Fin cfg2.N) (p : Fin 5000) (h : t.val * 5000 + p.val < 100000) :
    ((cfg2.win 1).blk t).view.emb (ix2 p (0 : Fin 1)) = ix2 (⟨t.val * 5000 + p.val, h⟩ : Fin 100000) (0 : Fin 1) := by
  obtain ⟨-, -, e0, e1, -⟩ := block_of_point t
  funext a; apply Fin.ext
  match a with
  | ⟨0, _⟩ => show win2_1.index t (0 : Fin 2) * 5000 + 1 * p.val = t.val * 5000 + p.val; omega
  | ⟨1, _⟩ => show win2_1.index t (1 : Fin 2) * 1 + 1 * 0 = 0; omega

/-- The weight matrix's one block is the matrix. -/
theorem emb_w (t : Fin cfg2.N) (j : Fin 64) (q : Fin 64) :
    ((cfg2.win 2).blk t).view.emb (ix2 j q) = ix2 j q := by
  obtain ⟨-, -, -, -, e0, e1, -⟩ := block_of_point t
  funext a; apply Fin.ext
  match a with
  | ⟨0, _⟩ => show win2_2.index t (0 : Fin 2) * 64 + 1 * j.val = j.val; omega
  | ⟨1, _⟩ => show win2_2.index t (1 : Fin 2) * 64 + 1 * q.val = q.val; omega

/-- The bias row's one block is the row. -/
theorem emb_b (t : Fin cfg2.N) (q : Fin 64) :
    ((cfg2.win 3).blk t).view.emb (ix2 (0 : Fin 1) q) = ix2 (0 : Fin 1) q := by
  obtain ⟨-, -, -, -, -, -, e0, e1, -⟩ := block_of_point t
  funext a; apply Fin.ext
  match a with
  | ⟨0, _⟩ => show win2_3.index t (0 : Fin 2) * 1 + 1 * 0 = 0; omega
  | ⟨1, _⟩ => show win2_3.index t (1 : Fin 2) * 64 + 1 * q.val = q.val; omega

/-- Entry (p, 0) of point `t`'s block of the out-degree column is entry (5000·t + p, 0) of the column. -/
theorem emb_s (t : Fin cfg2.N) (p : Fin 5000) (h : t.val * 5000 + p.val < 100000) :
    ((cfg2.win 4).blk t).view.emb (ix2 p (0 : Fin 1)) = ix2 (⟨t.val * 5000 + p.val, h⟩ : Fin 100000) (0 : Fin 1) := by
  obtain ⟨-, -, -, -, -, -, -, -, e0, e1, -⟩ := block_of_point t
  funext a; apply Fin.ext
  match a with
  | ⟨0, _⟩ => show win2_4.index t (0 : Fin 2) * 5000 + 1 * p.val = t.val * 5000 + p.val; omega
  | ⟨1, _⟩ => show win2_4.index t (1 : Fin 2) * 1 + 1 * 0 = 0; omega

/-- Entry (p, q) of point `t`'s block of the result is entry (5000·t + p, q) of the array. -/
theorem emb_out (t : Fin cfg2.N) (p : Fin 5000) (q : Fin 64) (h : t.val * 5000 + p.val < 100000) :
    ((cfg2.win 5).blk t).view.emb (ix2 p q) = ix2 (⟨t.val * 5000 + p.val, h⟩ : Fin 100000) q := by
  obtain ⟨-, -, -, -, -, -, -, -, -, -, e0, e1⟩ := block_of_point t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

/-- Point `t`'s block of the messages, at (p, j), is the array at (5000·t + p, j). -/
theorem blk_agg (c : Dev nD) (t : Fin cfg2.N) (p : Fin 5000) (j : Fin 64) (h : t.val * 5000 + p.val < 100000) :
    iblk2 V c 0 t (ix2 p j)
      = (V c main_v37 : FVec Ideal S100000x64 .f32) (ix2 (⟨t.val * 5000 + p.val, h⟩ : Fin 100000) j) := by
  show (V c main_v37 : FVec Ideal S100000x64 .f32) (((cfg2.win 0).blk t).view.emb (ix2 p j)) = _
  rw [emb_agg t p j h]

/-- Point `t`'s block of the in-degree column, at (p, 0), is the column at (5000·t + p, 0). -/
theorem blk_d (c : Dev nD) (t : Fin cfg2.N) (p : Fin 5000) (h : t.val * 5000 + p.val < 100000) :
    iblk2 V c 1 t (ix2 p (0 : Fin 1))
      = (V c main_v14 : FVec Ideal S100000x1 .f32) (ix2 (⟨t.val * 5000 + p.val, h⟩ : Fin 100000) (0 : Fin 1)) := by
  show (V c main_v14 : FVec Ideal S100000x1 .f32) (((cfg2.win 1).blk t).view.emb (ix2 p (0 : Fin 1))) = _
  rw [emb_d t p h]

/-- The weight matrix's block is the matrix. -/
theorem blk_w (c : Dev nD) (t : Fin cfg2.N) (j : Fin 64) (q : Fin 64) :
    iblk2 V c 2 t (ix2 j q) = (V c main_arg5 : FVec Ideal S64x64 .f32) (ix2 j q) := by
  show (V c main_arg5 : FVec Ideal S64x64 .f32) (((cfg2.win 2).blk t).view.emb (ix2 j q)) = _
  rw [emb_w t j q]

/-- The bias row's block is the row. -/
theorem blk_b (c : Dev nD) (t : Fin cfg2.N) (q : Fin 64) :
    iblk2 V c 3 t (ix2 (0 : Fin 1) q) = (V c main_v38 : FVec Ideal S1x64 .f32) (ix2 (0 : Fin 1) q) := by
  show (V c main_v38 : FVec Ideal S1x64 .f32) (((cfg2.win 3).blk t).view.emb (ix2 (0 : Fin 1) q)) = _
  rw [emb_b t q]

/-- Point `t`'s block of the out-degree column, at (p, 0), is the column at (5000·t + p, 0). -/
theorem blk_s (c : Dev nD) (t : Fin cfg2.N) (p : Fin 5000) (h : t.val * 5000 + p.val < 100000) :
    iblk2 V c 4 t (ix2 p (0 : Fin 1))
      = (V c main_v13 : FVec Ideal S100000x1 .f32) (ix2 (⟨t.val * 5000 + p.val, h⟩ : Fin 100000) (0 : Fin 1)) := by
  show (V c main_v13 : FVec Ideal S100000x1 .f32) (((cfg2.win 4).blk t).view.emb (ix2 p (0 : Fin 1))) = _
  rw [emb_s t p h]

/-- What point `t` writes back is block `t` of the hidden layer of the arrays the kernel was entered with. -/
theorem flushed_eq (c : Dev nD) (t : Fin cfg2.N) :
    (dat2 V c).flushed 5 t
      = ((cfg2.win 5).blk t).view.read (Elt Ideal)
          (Cert.Gcn.hidden (V c main_v37) (V c main_v14) (V c main_arg5) (V c main_v38) (V c main_v13)) := by
  show (cfg2.win 5).cut (grid2.coords t) ((dat2 V c).after 5 t) = _
  rw [after2_5]
  unfold out2_5
  rw [View.canon_unit_zero origin]
  simp only [View.ld_unit_zero (S := S5000x64) origin, View.ld_unit_zero (S := S5000x1) origin,
    View.ld_unit_zero (S := S64x64) origin, View.ld_unit_zero (S := S1x64) origin]
  funext y
  obtain ⟨p, q, rfl⟩ : ∃ (p : Fin 5000) (q : Fin 64), y = ix2 p q := ⟨y 0, y 1, eq_ix2 y⟩
  have hrow : t.val * 5000 + p.val < 100000 := by have := point_lt t; have := p.isLt; omega
  show k2_pay1 (iblk2 V c 0 t) (iblk2 V c 1 t) (iblk2 V c 2 t) (iblk2 V c 3 t) (iblk2 V c 4 t) (ix2 p q)
    = Cert.Gcn.hidden (V c main_v37) (V c main_v14) (V c main_arg5) (V c main_v38) (V c main_v13)
        (((cfg2.win 5).blk t).view.emb (ix2 p q))
  rw [emb_out t p q hrow, Cert.Gcn.hidden_apply]
  refine (Cert.Gcn.Body.hidden2_apply _ _ _ _ _ p q).trans ?_
  rw [blk_d V c t p hrow, blk_b V c t q, blk_s V c t p hrow]
  simp only [blk_agg V c t p _ hrow, blk_w V c t _ q]

/-- An index of the result array is in point `t`'s block iff each coordinate is in the block's range on its axis. -/
theorem mem_blk (t : Fin cfg2.N) (i : S100000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

/-- Every entry of the result array is in the block of the point its row falls to. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := lt_of_lt_of_eq (by omega : (i 0).val / 5000 < 20) N_2.symm
  obtain ⟨-, -, -, -, -, -, -, -, -, -, e0, e1⟩ := block_of_point ⟨(i 0).val / 5000, hN⟩
  have e0' : win2_5.index ⟨(i 0).val / 5000, hN⟩ (0 : Fin 2) = (i 0).val / 5000 := e0
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    omega
  | ⟨1, _⟩ =>
    show win2_5.index ⟨(i 0).val / 5000, hN⟩ (1 : Fin 2) * 64 ≤ (i 1).val
      ∧ (i 1).val < win2_5.index ⟨(i 0).val / 5000, hN⟩ (1 : Fin 2) * 64 + 64
    omega

/-- The array the kernel leaves: the hidden layer of the arrays it was entered with. -/
theorem arr (c : Dev nD) :
    (dat2 V c).arrAt 5 cfg2.N
      = Cert.Gcn.hidden (V c main_v37) (V c main_v14) (V c main_arg5) (V c main_v38) (V c main_v13) :=
  (dat2 V c).arrAt_eq_of_cover 5 _ (fun t _ => flushed_eq V c t) cover

end Cert.Gcn.Blocks2

end
-- ==== Proof.Blocks3.lean ====
/-
  The last layer's kernel, from blocks to the whole array.

  The grid has 20 points; point `t` works on rows 5000·t … 5000·t + 4999 of the aggregated messages and of the two
  columns of degree factors, on the whole weight matrix and the whole bias row (the same at every point), and writes
  back the same rows of the result. Row `r` of the result lies in exactly the block of point r / 5000, and what
  that point writes at (r, q) is the layer's value there, a sum over the 64 features of row `r` alone: the array
  the kernel leaves is the last layer of the arrays it was entered with. (The column of out-degree factors is
  staged for the kernel like the others, but this kernel does not read it.)
-/
import proofs.«141745_j58909771432681_1_alg».proof.Proof.KernelIdealFrameP
import proofs.«141745_j58909771432681_1_alg».proof.Proof.Gen.KernelIdeal.Points
import proofs.«141745_j58909771432681_1_alg».proof.Proof.Layers
import proofs.«141745_j58909771432681_1_alg».proof.Proof.Body
import Idealize.ShloMosaic.Lib.Pipeline.Value
import Idealize.ShloMosaic.Lib.ValueIdx

set_option maxRecDepth 16384

noncomputable section

namespace Cert.Gcn.Blocks3

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The row-blocked windows (messages, the two factor columns, the result) are on block row `t` at point `t`; the
    weight matrix and the bias row are one block each. -/
theorem block_of_point : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 20 := lt_of_lt_of_eq t.isLt N_3

/-- Entry (p, j) of point `t`'s block of the messages is entry (5000·t + p, j) of the array. -/
theorem emb_agg (t : Fin cfg3.N) (p : Fin 5000) (j : Fin 64) (h : t.val * 5000 + p.val < 100000) :
    ((cfg3.win 0).blk t).view.emb (ix2 p j) = ix2 (⟨t.val * 5000 + p.val, h⟩ : Fin 100000) j := by
  obtain ⟨e0, e1, -⟩ := block_of_point t
  funext a; apply Fin.ext
  match a with
  | ⟨0, _⟩ => show win3_0.index t (0 : Fin 2) * 5000 + 1 * p.val = t.val * 5000 + p.val; omega
  | ⟨1, _⟩ => show win3_0.index t (1 : Fin 2) * 64 + 1 * j.val = j.val; omega

/-- Entry (p, 0) of point `t`'s block of the in-degree column is entry (5000·t + p, 0) of the column. -/
theorem emb_d (t : Fin cfg3.N) (p : Fin 5000) (h : t.val * 5000 + p.val < 100000) :
    ((cfg3.win 1).blk t).view.emb (ix2 p (0 : Fin 1)) = ix2 (⟨t.val * 5000 + p.val, h⟩ : Fin 100000) (0 : Fin 1) := by
  obtain ⟨-, -, e0, e1, -⟩ := block_of_point t
  funext a; apply Fin.ext
  match a with
  | ⟨0, _⟩ => show win3_1.index t (0 : Fin 2) * 5000 + 1 * p.val = t.val * 5000 + p.val; omega
  | ⟨1, _⟩ => show win3_1.index t (1 : Fin 2) * 1 + 1 * 0 = 0; omega

/-- The weight matrix's one block is the matrix. -/
theorem emb_w (t : Fin cfg3.N) (j : Fin 64) (q : Fin 32) :
    ((cfg3.win 2).blk t).view.emb (ix2 j q) = ix2 j q := by
  obtain ⟨-, -, -, -, e0, e1, -⟩ := block_of_point t
  funext a; apply Fin.ext
  match a with
  | ⟨0, _⟩ => show win3_2.index t (0 : Fin 2) * 64 + 1 * j.val = j.val; omega
  | ⟨1, _⟩ => show win3_2.index t (1 : Fin 2) * 32 + 1 * q.val = q.val; omega

/-- The bias row's one block is the row. -/
theorem emb_b (t : Fin cfg3.N) (q : Fin 32) :
    ((cfg3.win 3).blk t).view.emb (ix2 (0 : Fin 1) q) = ix2 (0 : Fin 1) q := by
  obtain ⟨-, -, -, -, -, -, e0, e1, -⟩ := block_of_point t
  funext a; apply Fin.ext
  match a with
  | ⟨0, _⟩ => show win3_3.index t (0 : Fin 2) * 1 + 1 * 0 = 0; omega
  | ⟨1, _⟩ => show win3_3.index t (1 : Fin 2) * 32 + 1 * q.val = q.val; omega

/-- Entry (p, q) of point `t`'s block of the result is entry (5000·t + p, q) of the array. -/
theorem emb_out (t : Fin cfg3.N) (p : Fin 5000) (q : Fin 32) (h : t.val * 5000 + p.val < 100000) :
    ((cfg3.win 5).blk t).view.emb (ix2 p q) = ix2 (⟨t.val * 5000 + p.val, h⟩ : Fin 100000) q := by
  obtain ⟨-, -, -, -, -, -, -, -, -, -, e0, e1⟩ := block_of_point t
  funext a; apply Fin.ext
  match a with
  | ⟨0, _⟩ => show win3_5.index t (0 : Fin 2) * 5000 + 1 * p.val = t.val * 5000 + p.val; omega
  | ⟨1, _⟩ => show win3_5.index t (1 : Fin 2) * 32 + 1 * q.val = q.val; omega

/-- Point `t`'s block of the messages, at (p, j), is the array at (5000·t + p, j). -/
theorem blk_agg (c : Dev nD) (t : Fin cfg3.N) (p : Fin 5000) (j : Fin 64) (h : t.val * 5000 + p.val < 100000) :
    iblk3 V c 0 t (ix2 p j)
      = (V c main_v49 : FVec Ideal S100000x64 .f32) (ix2 (⟨t.val * 5000 + p.val, h⟩ : Fin 100000) j) := by
  show (V c main_v49 : FVec Ideal S100000x64 .f32) (((cfg3.win 0).blk t).view.emb (ix2 p j)) = _
  rw [emb_agg t p j h]

/-- Point `t`'s block of the in-degree column, at (p, 0), is the column at (5000·t + p, 0). -/
theorem blk_d (c : Dev nD) (t : Fin cfg3.N) (p : Fin 5000) (h : t.val * 5000 + p.val < 100000) :
    iblk3 V c 1 t (ix2 p (0 : Fin 1))
      = (V c main_v14 : FVec Ideal S100000x1 .f32) (ix2 (⟨t.val * 5000 + p.val, h⟩ : Fin 100000) (0 : Fin 1)) := by
  show (V c main_v14 : FVec Ideal S100000x1 .f32) (((cfg3.win 1).blk t).view.emb (ix2 p (0 : Fin 1))) = _
  rw [emb_d t p h]

/-- The weight matrix's block is the matrix. -/
theorem blk_w (c : Dev nD) (t : Fin cfg3.N) (j : Fin 64) (q : Fin 32) :
    iblk3 V c 2 t (ix2 j q) = (V c main_arg7 : FVec Ideal S64x32 .f32) (ix2 j q) := by
  show (V c main_arg7 : FVec Ideal S64x32 .f32) (((cfg3.win 2).blk t).view.emb (ix2 j q)) = _
  rw [emb_w t j q]

/-- The bias row's block is the row. -/
theorem blk_b (c : Dev nD) (t : Fin cfg3.N) (q : Fin 32) :
    iblk3 V c 3 t (ix2 (0 : Fin 1) q) = (V c main_v50 : FVec Ideal S1x32 .f32) (ix2 (0 : Fin 1) q) := by
  show (V c main_v50 : FVec Ideal S1x32 .f32) (((cfg3.win 3).blk t).view.emb (ix2 (0 : Fin 1) q)) = _
  rw [emb_b t q]

/-- What point `t` writes back is block `t` of the last layer of the arrays the kernel was entered with. -/
theorem flushed_eq (c : Dev nD) (t : Fin cfg3.N) :
    (dat3 V c).flushed 5 t
      = ((cfg3.win 5).blk t).view.read (Elt Ideal)
          (Cert.Gcn.last (V c main_v49) (V c main_v14) (V c main_arg7) (V c main_v50)) := by
  show (cfg3.win 5).cut (grid3.coords t) ((dat3 V c).after 5 t) = _
  rw [after3_5]
  unfold out3_5
  rw [View.canon_unit_zero origin]
  simp only [View.ld_unit_zero (S := S5000x64) origin, View.ld_unit_zero (S := S5000x1) origin,
    View.ld_unit_zero (S := S64x32) origin, View.ld_unit_zero (S := S1x32) origin]
  funext y
  obtain ⟨p, q, rfl⟩ : ∃ (p : Fin 5000) (q : Fin 32), y = ix2 p q := ⟨y 0, y 1, eq_ix2 y⟩
  have hrow : t.val * 5000 + p.val < 100000 := by have := point_lt t; have := p.isLt; omega
  show k3_pay1 (iblk3 V c 0 t) (iblk3 V c 1 t) (iblk3 V c 2 t) (iblk3 V c 3 t) (ix2 p q)
    = Cert.Gcn.last (V c main_v49) (V c main_v14) (V c main_arg7) (V c main_v50)
        (((cfg3.win 5).blk t).view.emb (ix2 p q))
  rw [emb_out t p q hrow, Cert.Gcn.last_apply]
  refine (Cert.Gcn.Body.last_apply _ _ _ _ p q).trans ?_
  rw [blk_d V c t p hrow, blk_b V c t q]
  simp only [blk_agg V c t p _ hrow, blk_w V c t _ q]

/-- An index of the result array is in point `t`'s block iff each coordinate is in the block's range on its axis. -/
theorem mem_blk (t : Fin cfg3.N) (i : S100000x32.Idx) :
    i ∈ ((cfg3.win 5).blk t).view.set
      ↔ ∀ a : Fin 2, win3_5.index t a * S5000x32.size a ≤ (i a).val ∧ (i a).val < win3_5.index t a * S5000x32.size a + S5000x32.size a := by
  show i ∈ ((View.whole main_v51).slice (win3_5.rect t)).set ↔ _
  rw [View.set_slice_whole, Rect.mem_set_unit]
  exact Iff.rfl

/-- Every entry of the result array is in the block of the point its row falls to. -/
theorem cover (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  have hN : (i 0).val / 5000 < cfg3.N := lt_of_lt_of_eq (by omega : (i 0).val / 5000 < 20) N_3.symm
  obtain ⟨-, -, -, -, -, -, -, -, -, -, e0, e1⟩ := block_of_point ⟨(i 0).val / 5000, hN⟩
  have e0' : win3_5.index ⟨(i 0).val / 5000, hN⟩ (0 : Fin 2) = (i 0).val / 5000 := e0
  refine ⟨⟨(i 0).val / 5000, hN⟩, flush3_5 _, ?_⟩
  rw [mem_blk]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    omega
  | ⟨1, _⟩ =>
    show win3_5.index ⟨(i 0).val / 5000, hN⟩ (1 : Fin 2) * 32 ≤ (i 1).val
      ∧ (i 1).val < win3_5.index ⟨(i 0).val / 5000, hN⟩ (1 : Fin 2) * 32 + 32
    omega

/-- The array the kernel leaves: the last layer of the arrays it was entered with. -/
theorem arr (c : Dev nD) :
    (dat3 V c).arrAt 5 cfg3.N
      = Cert.Gcn.last (V c main_v49) (V c main_v14) (V c main_arg7) (V c main_v50) :=
  (dat3 V c).arrAt_eq_of_cover 5 _ (fun t _ => flushed_eq V c t) cover

end Cert.Gcn.Blocks3

end
-- ==== Proof.Network.lean ====
/-
  The three-layer graph convolution as one function of the argument arrays.

  Each node's out-degree and in-degree are counted by adding a one per edge at the edge's source, respectively
  destination (an addition scattered over the nodes), and the node's factor is the reciprocal square root of the
  count, at least one. A round of message passing gathers, for every edge, the source node's row of features, and
  adds the rows up at the destination nodes. Neither the counting nor the gathering and scattered adding is opened
  here: they are the same array operations, applied to whatever features the layer before produced, on both sides
  of the comparison this certificate makes, so they are carried as functions of their operands and nothing more.
      network = last ∘ messages ∘ hidden ∘ messages ∘ hidden ∘ messages ∘ scaleRows.
  The per-node factors enter the layers as columns `[N, 1]` and the biases as rows `[1, n]`. A vector re-laid as a
  column or as a row by a change of shape alone is the same array as the one laid out by sending its axis to the
  column's, respectively the row's, axis: both hold the vector's entry `i` at (i, 0), respectively (0, i).
-/
import proofs.«141745_j58909771432681_1_alg».proof.Proof.Layers
import proofs.«141745_j58909771432681_1_alg».proof.Proof.LibKeepdims
import Idealize.ShloMosaic.Lib.ValueLayout

noncomputable section

namespace Cert.Gcn

open Idealize.ShloMosaic Idealize.ShloMosaic.ValueIdx Cert.ReferenceIdeal Cert.ReferenceIdeal.Gen

/-- One end of every edge: 1600000 node numbers. -/
abbrev Ends : Type := (⟨S1600000, .i32⟩ : BufTy).Contents (Elt Ideal)

/-- A node's factor from the ends of the edges counted at it: rsqrt (max (count, 1)). -/
def degreeFactor (e : Ends) : FVec Ideal S100000 .f32 :=
  Host.rsqrt (maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 e)
      (broadcastInDim S1600000 ![] bcast_S_S1600000 (constant (F := Ideal) S_ .f32 0x3F800000#32)))
    (broadcastInDim S100000 ![] bcast_S_S100000 (constant (F := Ideal) S_ .f32 0x3F800000#32)))

/-- A round of message passing: every edge carries its source's row (a negative node number counted from the end),
    and the rows are added up at the destinations, from zero. -/
def messages (h : FVec Ideal S100000x64 .f32) (src dst : Ends) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A per-node vector as the column `[N, 1]`. -/
def column (v : FVec Ideal S100000 .f32) : FVec Ideal S100000x1 .f32 :=
  broadcastInDim S100000x1 ![0] bcast_S100000_S100000x1_0 v

/-- A bias of 64 entries as the row `[1, 64]`. -/
def row64 (b : FVec Ideal S64 .f32) : FVec Ideal S1x64 .f32 :=
  broadcastInDim S1x64 ![1] bcast_S64_S1x64_1 b

/-- A bias of 32 entries as the row `[1, 32]`. -/
def row32 (b : FVec Ideal S32 .f32) : FVec Ideal S1x32 .f32 :=
  broadcastInDim S1x32 ![1] bcast_S32_S1x32_1 b

/-- The network, from the factor columns `s` (out-degree) and `d` (in-degree) and the bias rows. -/
def layers (x : FVec Ideal S100000x64 .f32) (src dst : Ends) (s d : FVec Ideal S100000x1 .f32)
    (W0 : FVec Ideal S64x64 .f32) (b0 : FVec Ideal S1x64 .f32) (W1 : FVec Ideal S64x64 .f32) (b1 : FVec Ideal S1x64 .f32)
    (W2 : FVec Ideal S64x32 .f32) (b2 : FVec Ideal S1x32 .f32) : FVec Ideal S100000x32 .f32 :=
  last (messages (hidden (messages (hidden (messages (scaleRows x s) src dst) d W0 b0 s) src dst) d W1 b1 s) src dst) d W2 b2

/-- The network as a function of the nine argument arrays. -/
def network (x : FVec Ideal S100000x64 .f32) (src dst : Ends)
    (W0 : FVec Ideal S64x64 .f32) (b0 : FVec Ideal S64 .f32) (W1 : FVec Ideal S64x64 .f32) (b1 : FVec Ideal S64 .f32)
    (W2 : FVec Ideal S64x32 .f32) (b2 : FVec Ideal S32 .f32) : FVec Ideal S100000x32 .f32 :=
  layers x src dst (column (degreeFactor src)) (column (degreeFactor dst)) W0 (row64 b0) W1 (row64 b1) W2 (row32 b2)

/-! ## A change of shape to a column or a row is the column or the row -/

theorem shapeCast_column (v : FVec Ideal S100000 .f32) (h : S100000.ShapeCasts S100000x1) :
    shapeCast S100000x1 v h = column v := by
  funext i
  obtain ⟨P, u, rfl⟩ : ∃ (P : Fin 100000) (u : Fin 1), i = ix2 P u := ⟨i 0, i 1, eq_ix2 i⟩
  unfold column
  rw [Cert.Keepdims.shapeCast_a_a1_apply v h P u,
    Cert.Lib.ColumnInDim.column_apply (by decide) bcast_S100000_S100000x1_0 v P u]

theorem shapeCast_row64 (b : FVec Ideal S64 .f32) (h : S64.ShapeCasts S1x64) :
    shapeCast S1x64 b h = row64 b := by
  funext i
  obtain ⟨u, q, rfl⟩ : ∃ (u : Fin 1) (q : Fin 64), i = ix2 u q := ⟨i 0, i 1, eq_ix2 i⟩
  unfold row64
  rw [shapeCast_a_1a_apply b h u q, Cert.Lib.RowInDim.row_apply (by decide) bcast_S64_S1x64_1 b u q]

theorem shapeCast_row32 (b : FVec Ideal S32 .f32) (h : S32.ShapeCasts S1x32) :
    shapeCast S1x32 b h = row32 b := by
  funext i
  obtain ⟨u, q, rfl⟩ : ∃ (u : Fin 1) (q : Fin 32), i = ix2 u q := ⟨i 0, i 1, eq_ix2 i⟩
  unfold row32
  rw [shapeCast_a_1a_apply b h u q, Cert.Lib.RowInDim.row_apply (by decide) bcast_S32_S1x32_1 b u q]

end Cert.Gcn

end
-- ==== Proof.Walk.lean ====
/-
  The idealized kernel program's result, boundary by boundary.

  The program alternates stretches of array operations with kernels. Walking its boundaries in order: the first
  stretch computes the two columns of degree factors (and leaves the arguments alone); the row-scaling kernel
  leaves the scaled features; each later stretch passes messages along the edges from the array the kernel before
  it left, and lays the next bias out as a row; each layer kernel leaves its layer of the arrays it was entered
  with. Every array a later step reads is, at that step, still what an earlier step left, because no step in
  between writes it. Composed, the last kernel's result array is the network of the argument arrays.
-/
import proofs.«141745_j58909771432681_1_alg».proof.Proof.KernelIdealFrameP
import proofs.«141745_j58909771432681_1_alg».proof.Proof.Blocks0
import proofs.«141745_j58909771432681_1_alg».proof.Proof.Blocks1
import proofs.«141745_j58909771432681_1_alg».proof.Proof.Blocks2
import proofs.«141745_j58909771432681_1_alg».proof.Proof.Blocks3
import proofs.«141745_j58909771432681_1_alg».proof.Proof.Network
import Idealize.ShloMosaic.Lib.StableHlo.Run

set_option maxRecDepth 16384

noncomputable section

namespace Cert.Gcn.Walk

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg) (c : Dev nD)

/-! ## After the first stretch: the arguments untouched, the two factor columns computed -/

theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_v13 : W1 m ρ c (Proc.devRef .tc main_v13)
    = shapeCast S100000x1 (Cert.Gcn.degreeFactor (m ((c : Thread nD τ).loc main_arg1))) shapeCasts_S100000_S100000x1 := by
  show StableHlo.after hostOps0 (W0 m ρ c) (Proc.devRef .tc main_v13) = _
  after_results
  rfl
theorem W1_v14 : W1 m ρ c (Proc.devRef .tc main_v14)
    = shapeCast S100000x1 (Cert.Gcn.degreeFactor (m ((c : Thread nD τ).loc main_arg2))) shapeCasts_S100000_S100000x1 := by
  show StableHlo.after hostOps0 (W0 m ρ c) (Proc.devRef .tc main_v14) = _
  after_results
  rfl

/-! ## After the row-scaling kernel -/

theorem W2_v15 : W2 m ρ c (Proc.devRef .tc main_v15)
    = Cert.Gcn.scaleRows (W1 m ρ c (Proc.devRef .tc main_arg0)) (W1 m ρ c (Proc.devRef .tc main_v13)) :=
  (W2_arr m ρ c 2).trans (Cert.Gcn.Blocks0.arr (V1 m ρ) c)
theorem W2_arg1 : W2 m ρ c (Proc.devRef .tc main_arg1) = W1 m ρ c (Proc.devRef .tc main_arg1) :=
  W2_of_ne m ρ c main_arg1 (by decide)
theorem W2_arg2 : W2 m ρ c (Proc.devRef .tc main_arg2) = W1 m ρ c (Proc.devRef .tc main_arg2) :=
  W2_of_ne m ρ c main_arg2 (by decide)
theorem W2_arg3 : W2 m ρ c (Proc.devRef .tc main_arg3) = W1 m ρ c (Proc.devRef .tc main_arg3) :=
  W2_of_ne m ρ c main_arg3 (by decide)
theorem W2_arg4 : W2 m ρ c (Proc.devRef .tc main_arg4) = W1 m ρ c (Proc.devRef .tc main_arg4) :=
  W2_of_ne m ρ c main_arg4 (by decide)
theorem W2_arg5 : W2 m ρ c (Proc.devRef .tc main_arg5) = W1 m ρ c (Proc.devRef .tc main_arg5) :=
  W2_of_ne m ρ c main_arg5 (by decide)
theorem W2_arg6 : W2 m ρ c (Proc.devRef .tc main_arg6) = W1 m ρ c (Proc.devRef .tc main_arg6) :=
  W2_of_ne m ρ c main_arg6 (by decide)
theorem W2_arg7 : W2 m ρ c (Proc.devRef .tc main_arg7) = W1 m ρ c (Proc.devRef .tc main_arg7) :=
  W2_of_ne m ρ c main_arg7 (by decide)
theorem W2_arg8 : W2 m ρ c (Proc.devRef .tc main_arg8) = W1 m ρ c (Proc.devRef .tc main_arg8) :=
  W2_of_ne m ρ c main_arg8 (by decide)
theorem W2_v14 : W2 m ρ c (Proc.devRef .tc main_v14) = W1 m ρ c (Proc.devRef .tc main_v14) :=
  W2_of_ne m ρ c main_v14 (by decide)
theorem W2_v13 : W2 m ρ c (Proc.devRef .tc main_v13) = W1 m ρ c (Proc.devRef .tc main_v13) :=
  (W2_arr m ρ c 1).trans (((dat0 (V1 m ρ) c).arrAt_in 1 rfl _).trans (A_eq0 (V1 m ρ) c 1))

/-! ## After the second stretch: the first round of messages, the first bias as a row -/

theorem W3_v25 : W3 m ρ c (Proc.devRef .tc main_v25)
    = Cert.Gcn.messages (W2 m ρ c (Proc.devRef .tc main_v15)) (W2 m ρ c (Proc.devRef .tc main_arg1)) (W2 m ρ c (Proc.devRef .tc main_arg2)) := by
  show StableHlo.after hostOps1 (W2 m ρ c) (Proc.devRef .tc main_v25) = _
  after_results
  rfl
theorem W3_v26 : W3 m ρ c (Proc.devRef .tc main_v26)
    = shapeCast S1x64 (W2 m ρ c (Proc.devRef .tc main_arg4)) shapeCasts_S64_S1x64 := by
  show StableHlo.after hostOps1 (W2 m ρ c) (Proc.devRef .tc main_v26) = _
  after_results
  rfl
theorem W3_arg1 : W3 m ρ c (Proc.devRef .tc main_arg1) = W2 m ρ c (Proc.devRef .tc main_arg1) := by
  show StableHlo.after hostOps1 (W2 m ρ c) (Proc.devRef .tc main_arg1) = _
  after_results
theorem W3_arg2 : W3 m ρ c (Proc.devRef .tc main_arg2) = W2 m ρ c (Proc.devRef .tc main_arg2) := by
  show StableHlo.after hostOps1 (W2 m ρ c) (Proc.devRef .tc main_arg2) = _
  after_results
theorem W3_arg3 : W3 m ρ c (Proc.devRef .tc main_arg3) = W2 m ρ c (Proc.devRef .tc main_arg3) := by
  show StableHlo.after hostOps1 (W2 m ρ c) (Proc.devRef .tc main_arg3) = _
  after_results
theorem W3_arg5 : W3 m ρ c (Proc.devRef .tc main_arg5) = W2 m ρ c (Proc.devRef .tc main_arg5) := by
  show StableHlo.after hostOps1 (W2 m ρ c) (Proc.devRef .tc main_arg5) = _
  after_results
theorem W3_arg6 : W3 m ρ c (Proc.devRef .tc main_arg6) = W2 m ρ c (Proc.devRef .tc main_arg6) := by
  show StableHlo.after hostOps1 (W2 m ρ c) (Proc.devRef .tc main_arg6) = _
  after_results
theorem W3_arg7 : W3 m ρ c (Proc.devRef .tc main_arg7) = W2 m ρ c (Proc.devRef .tc main_arg7) := by
  show StableHlo.after hostOps1 (W2 m ρ c) (Proc.devRef .tc main_arg7) = _
  after_results
theorem W3_arg8 : W3 m ρ c (Proc.devRef .tc main_arg8) = W2 m ρ c (Proc.devRef .tc main_arg8) := by
  show StableHlo.after hostOps1 (W2 m ρ c) (Proc.devRef .tc main_arg8) = _
  after_results
theorem W3_v13 : W3 m ρ c (Proc.devRef .tc main_v13) = W2 m ρ c (Proc.devRef .tc main_v13) := by
  show StableHlo.after hostOps1 (W2 m ρ c) (Proc.devRef .tc main_v13) = _
  after_results
theorem W3_v14 : W3 m ρ c (Proc.devRef .tc main_v14) = W2 m ρ c (Proc.devRef .tc main_v14) := by
  show StableHlo.after hostOps1 (W2 m ρ c) (Proc.devRef .tc main_v14) = _
  after_results

/-! ## After the first hidden layer's kernel -/

theorem W4_v27 : W4 m ρ c (Proc.devRef .tc main_v27)
    = Cert.Gcn.hidden (W3 m ρ c (Proc.devRef .tc main_v25)) (W3 m ρ c (Proc.devRef .tc main_v14)) (W3 m ρ c (Proc.devRef .tc main_arg3))
        (W3 m ρ c (Proc.devRef .tc main_v26)) (W3 m ρ c (Proc.devRef .tc main_v13)) :=
  (W4_arr m ρ c 5).trans (Cert.Gcn.Blocks1.arr (V3 m ρ) c)
theorem W4_arg1 : W4 m ρ c (Proc.devRef .tc main_arg1) = W3 m ρ c (Proc.devRef .tc main_arg1) :=
  W4_of_ne m ρ c main_arg1 (by decide)
theorem W4_arg2 : W4 m ρ c (Proc.devRef .tc main_arg2) = W3 m ρ c (Proc.devRef .tc main_arg2) :=
  W4_of_ne m ρ c main_arg2 (by decide)
theorem W4_arg5 : W4 m ρ c (Proc.devRef .tc main_arg5) = W3 m ρ c (Proc.devRef .tc main_arg5) :=
  W4_of_ne m ρ c main_arg5 (by decide)
theorem W4_arg6 : W4 m ρ c (Proc.devRef .tc main_arg6) = W3 m ρ c (Proc.devRef .tc main_arg6) :=
  W4_of_ne m ρ c main_arg6 (by decide)
theorem W4_arg7 : W4 m ρ c (Proc.devRef .tc main_arg7) = W3 m ρ c (Proc.devRef .tc main_arg7) :=
  W4_of_ne m ρ c main_arg7 (by decide)
theorem W4_arg8 : W4 m ρ c (Proc.devRef .tc main_arg8) = W3 m ρ c (Proc.devRef .tc main_arg8) :=
  W4_of_ne m ρ c main_arg8 (by decide)
theorem W4_v14 : W4 m ρ c (Proc.devRef .tc main_v14) = W3 m ρ c (Proc.devRef .tc main_v14) :=
  (W4_arr m ρ c 1).trans (((dat1 (V3 m ρ) c).arrAt_in 1 rfl _).trans (A_eq1 (V3 m ρ) c 1))
theorem W4_v13 : W4 m ρ c (Proc.devRef .tc main_v13) = W3 m ρ c (Proc.devRef .tc main_v13) :=
  (W4_arr m ρ c 4).trans (((dat1 (V3 m ρ) c).arrAt_in 4 rfl _).trans (A_eq1 (V3 m ρ) c 4))

/-! ## After the third stretch: the second round of messages, the second bias as a row -/

theorem W5_v37 : W5 m ρ c (Proc.devRef .tc main_v37)
    = Cert.Gcn.messages (W4 m ρ c (Proc.devRef .tc main_v27)) (W4 m ρ c (Proc.devRef .tc main_arg1)) (W4 m ρ c (Proc.devRef .tc main_arg2)) := by
  show StableHlo.after hostOps2 (W4 m ρ c) (Proc.devRef .tc main_v37) = _
  after_results
  rfl
theorem W5_v38 : W5 m ρ c (Proc.devRef .tc main_v38)
    = shapeCast S1x64 (W4 m ρ c (Proc.devRef .tc main_arg6)) shapeCasts_S64_S1x64 := by
  show StableHlo.after hostOps2 (W4 m ρ c) (Proc.devRef .tc main_v38) = _
  after_results
  rfl
theorem W5_arg1 : W5 m ρ c (Proc.devRef .tc main_arg1) = W4 m ρ c (Proc.devRef .tc main_arg1) := by
  show StableHlo.after hostOps2 (W4 m ρ c) (Proc.devRef .tc main_arg1) = _
  after_results
theorem W5_arg2 : W5 m ρ c (Proc.devRef .tc main_arg2) = W4 m ρ c (Proc.devRef .tc main_arg2) := by
  show StableHlo.after hostOps2 (W4 m ρ c) (Proc.devRef .tc main_arg2) = _
  after_results
theorem W5_arg5 : W5 m ρ c (Proc.devRef .tc main_arg5) = W4 m ρ c (Proc.devRef .tc main_arg5) := by
  show StableHlo.after hostOps2 (W4 m ρ c) (Proc.devRef .tc main_arg5) = _
  after_results
theorem W5_arg7 : W5 m ρ c (Proc.devRef .tc main_arg7) = W4 m ρ c (Proc.devRef .tc main_arg7) := by
  show StableHlo.after hostOps2 (W4 m ρ c) (Proc.devRef .tc main_arg7) = _
  after_results
theorem W5_arg8 : W5 m ρ c (Proc.devRef .tc main_arg8) = W4 m ρ c (Proc.devRef .tc main_arg8) := by
  show StableHlo.after hostOps2 (W4 m ρ c) (Proc.devRef .tc main_arg8) = _
  after_results
theorem W5_v13 : W5 m ρ c (Proc.devRef .tc main_v13) = W4 m ρ c (Proc.devRef .tc main_v13) := by
  show StableHlo.after hostOps2 (W4 m ρ c) (Proc.devRef .tc main_v13) = _
  after_results
theorem W5_v14 : W5 m ρ c (Proc.devRef .tc main_v14) = W4 m ρ c (Proc.devRef .tc main_v14) := by
  show StableHlo.after hostOps2 (W4 m ρ c) (Proc.devRef .tc main_v14) = _
  after_results

/-! ## After the second hidden layer's kernel -/

theorem W6_v39 : W6 m ρ c (Proc.devRef .tc main_v39)
    = Cert.Gcn.hidden (W5 m ρ c (Proc.devRef .tc main_v37)) (W5 m ρ c (Proc.devRef .tc main_v14)) (W5 m ρ c (Proc.devRef .tc main_arg5))
        (W5 m ρ c (Proc.devRef .tc main_v38)) (W5 m ρ c (Proc.devRef .tc main_v13)) :=
  (W6_arr m ρ c 5).trans (Cert.Gcn.Blocks2.arr (V5 m ρ) c)
theorem W6_arg1 : W6 m ρ c (Proc.devRef .tc main_arg1) = W5 m ρ c (Proc.devRef .tc main_arg1) :=
  W6_of_ne m ρ c main_arg1 (by decide)
theorem W6_arg2 : W6 m ρ c (Proc.devRef .tc main_arg2) = W5 m ρ c (Proc.devRef .tc main_arg2) :=
  W6_of_ne m ρ c main_arg2 (by decide)
theorem W6_arg7 : W6 m ρ c (Proc.devRef .tc main_arg7) = W5 m ρ c (Proc.devRef .tc main_arg7) :=
  W6_of_ne m ρ c main_arg7 (by decide)
theorem W6_arg8 : W6 m ρ c (Proc.devRef .tc main_arg8) = W5 m ρ c (Proc.devRef .tc main_arg8) :=
  W6_of_ne m ρ c main_arg8 (by decide)
theorem W6_v14 : W6 m ρ c (Proc.devRef .tc main_v14) = W5 m ρ c (Proc.devRef .tc main_v14) :=
  (W6_arr m ρ c 1).trans (((dat2 (V5 m ρ) c).arrAt_in 1 rfl _).trans (A_eq2 (V5 m ρ) c 1))

/-! ## After the last stretch: the third round of messages, the last bias as a row -/

theorem W7_v49 : W7 m ρ c (Proc.devRef .tc main_v49)
    = Cert.Gcn.messages (W6 m ρ c (Proc.devRef .tc main_v39)) (W6 m ρ c (Proc.devRef .tc main_arg1)) (W6 m ρ c (Proc.devRef .tc main_arg2)) := by
  show StableHlo.after hostOps3 (W6 m ρ c) (Proc.devRef .tc main_v49) = _
  after_results
  rfl
theorem W7_v50 : W7 m ρ c (Proc.devRef .tc main_v50)
    = shapeCast S1x32 (W6 m ρ c (Proc.devRef .tc main_arg8)) shapeCasts_S32_S1x32 := by
  show StableHlo.after hostOps3 (W6 m ρ c) (Proc.devRef .tc main_v50) = _
  after_results
  rfl
theorem W7_arg7 : W7 m ρ c (Proc.devRef .tc main_arg7) = W6 m ρ c (Proc.devRef .tc main_arg7) := by
  show StableHlo.after hostOps3 (W6 m ρ c) (Proc.devRef .tc main_arg7) = _
  after_results
theorem W7_v14 : W7 m ρ c (Proc.devRef .tc main_v14) = W6 m ρ c (Proc.devRef .tc main_v14) := by
  show StableHlo.after hostOps3 (W6 m ρ c) (Proc.devRef .tc main_v14) = _
  after_results

/-! ## After the last layer's kernel -/

theorem W8_v51 : W8 m ρ c (Proc.devRef .tc main_v51)
    = Cert.Gcn.last (W7 m ρ c (Proc.devRef .tc main_v49)) (W7 m ρ c (Proc.devRef .tc main_v14)) (W7 m ρ c (Proc.devRef .tc main_arg7)) (W7 m ρ c (Proc.devRef .tc main_v50)) :=
  (W8_arr m ρ c 5).trans (Cert.Gcn.Blocks3.arr (V7 m ρ) c)

/-! ## Composed -/

/-- The arguments as launched, and the arrays the program computes from them, in order. -/
abbrev aX : FVec Ideal S100000x64 .f32 := m ((c : Thread nD τ).loc main_arg0)
abbrev aSrc : Cert.Gcn.Ends := m ((c : Thread nD τ).loc main_arg1)
abbrev aDst : Cert.Gcn.Ends := m ((c : Thread nD τ).loc main_arg2)
/-- The out-degree factors, re-laid as a column by a change of shape. -/
abbrev kS : FVec Ideal S100000x1 .f32 :=
  shapeCast S100000x1 (Cert.Gcn.degreeFactor (m ((c : Thread nD τ).loc main_arg1))) shapeCasts_S100000_S100000x1
/-- The in-degree factors, re-laid as a column by a change of shape. -/
abbrev kD : FVec Ideal S100000x1 .f32 :=
  shapeCast S100000x1 (Cert.Gcn.degreeFactor (m ((c : Thread nD τ).loc main_arg2))) shapeCasts_S100000_S100000x1
/-- The scaled features. -/
abbrev h0 : FVec Ideal S100000x64 .f32 := Cert.Gcn.scaleRows (m ((c : Thread nD τ).loc main_arg0)) (kS m c)
/-- The first round of messages. -/
abbrev a0 : FVec Ideal S100000x64 .f32 :=
  Cert.Gcn.messages (h0 m c) (m ((c : Thread nD τ).loc main_arg1)) (m ((c : Thread nD τ).loc main_arg2))
/-- The first hidden layer. -/
abbrev h1 : FVec Ideal S100000x64 .f32 :=
  Cert.Gcn.hidden (a0 m c) (kD m c) (m ((c : Thread nD τ).loc main_arg3))
    (shapeCast S1x64 (m ((c : Thread nD τ).loc main_arg4)) shapeCasts_S64_S1x64) (kS m c)
/-- The second round of messages. -/
abbrev a1 : FVec Ideal S100000x64 .f32 :=
  Cert.Gcn.messages (h1 m c) (m ((c : Thread nD τ).loc main_arg1)) (m ((c : Thread nD τ).loc main_arg2))
/-- The second hidden layer. -/
abbrev h2 : FVec Ideal S100000x64 .f32 :=
  Cert.Gcn.hidden (a1 m c) (kD m c) (m ((c : Thread nD τ).loc main_arg5))
    (shapeCast S1x64 (m ((c : Thread nD τ).loc main_arg6)) shapeCasts_S64_S1x64) (kS m c)
/-- The third round of messages. -/
abbrev a2 : FVec Ideal S100000x64 .f32 :=
  Cert.Gcn.messages (h2 m c) (m ((c : Thread nD τ).loc main_arg1)) (m ((c : Thread nD τ).loc main_arg2))

/-! ### What each carried buffer holds at each boundary, in terms of the launch: nothing in between wrote it -/

theorem L2_arg1 : W2 m ρ c (Proc.devRef .tc main_arg1) = m ((c : Thread nD τ).loc main_arg1) :=
  (W2_arg1 m ρ c).trans (W1_arg1 m ρ c)
theorem L2_arg2 : W2 m ρ c (Proc.devRef .tc main_arg2) = m ((c : Thread nD τ).loc main_arg2) :=
  (W2_arg2 m ρ c).trans (W1_arg2 m ρ c)
theorem L2_arg3 : W2 m ρ c (Proc.devRef .tc main_arg3) = m ((c : Thread nD τ).loc main_arg3) :=
  (W2_arg3 m ρ c).trans (W1_arg3 m ρ c)
theorem L2_arg4 : W2 m ρ c (Proc.devRef .tc main_arg4) = m ((c : Thread nD τ).loc main_arg4) :=
  (W2_arg4 m ρ c).trans (W1_arg4 m ρ c)
theorem L2_arg5 : W2 m ρ c (Proc.devRef .tc main_arg5) = m ((c : Thread nD τ).loc main_arg5) :=
  (W2_arg5 m ρ c).trans (W1_arg5 m ρ c)
theorem L2_arg6 : W2 m ρ c (Proc.devRef .tc main_arg6) = m ((c : Thread nD τ).loc main_arg6) :=
  (W2_arg6 m ρ c).trans (W1_arg6 m ρ c)
theorem L2_arg7 : W2 m ρ c (Proc.devRef .tc main_arg7) = m ((c : Thread nD τ).loc main_arg7) :=
  (W2_arg7 m ρ c).trans (W1_arg7 m ρ c)
theorem L2_arg8 : W2 m ρ c (Proc.devRef .tc main_arg8) = m ((c : Thread nD τ).loc main_arg8) :=
  (W2_arg8 m ρ c).trans (W1_arg8 m ρ c)
theorem L2_v13 : W2 m ρ c (Proc.devRef .tc main_v13) = kS m c :=
  (W2_v13 m ρ c).trans (W1_v13 m ρ c)
theorem L2_v14 : W2 m ρ c (Proc.devRef .tc main_v14) = kD m c :=
  (W2_v14 m ρ c).trans (W1_v14 m ρ c)
theorem L3_arg1 : W3 m ρ c (Proc.devRef .tc main_arg1) = m ((c : Thread nD τ).loc main_arg1) :=
  (W3_arg1 m ρ c).trans (L2_arg1 m ρ c)
theorem L3_arg2 : W3 m ρ c (Proc.devRef .tc main_arg2) = m ((c : Thread nD τ).loc main_arg2) :=
  (W3_arg2 m ρ c).trans (L2_arg2 m ρ c)
theorem L3_arg3 : W3 m ρ c (Proc.devRef .tc main_arg3) = m ((c : Thread nD τ).loc main_arg3) :=
  (W3_arg3 m ρ c).trans (L2_arg3 m ρ c)
theorem L3_arg5 : W3 m ρ c (Proc.devRef .tc main_arg5) = m ((c : Thread nD τ).loc main_arg5) :=
  (W3_arg5 m ρ c).trans (L2_arg5 m ρ c)
theorem L3_arg6 : W3 m ρ c (Proc.devRef .tc main_arg6) = m ((c : Thread nD τ).loc main_arg6) :=
  (W3_arg6 m ρ c).trans (L2_arg6 m ρ c)
theorem L3_arg7 : W3 m ρ c (Proc.devRef .tc main_arg7) = m ((c : Thread nD τ).loc main_arg7) :=
  (W3_arg7 m ρ c).trans (L2_arg7 m ρ c)
theorem L3_arg8 : W3 m ρ c (Proc.devRef .tc main_arg8) = m ((c : Thread nD τ).loc main_arg8) :=
  (W3_arg8 m ρ c).trans (L2_arg8 m ρ c)
theorem L3_v13 : W3 m ρ c (Proc.devRef .tc main_v13) = kS m c :=
  (W3_v13 m ρ c).trans (L2_v13 m ρ c)
theorem L3_v14 : W3 m ρ c (Proc.devRef .tc main_v14) = kD m c :=
  (W3_v14 m ρ c).trans (L2_v14 m ρ c)
theorem L4_arg1 : W4 m ρ c (Proc.devRef .tc main_arg1) = m ((c : Thread nD τ).loc main_arg1) :=
  (W4_arg1 m ρ c).trans (L3_arg1 m ρ c)
theorem L4_arg2 : W4 m ρ c (Proc.devRef .tc main_arg2) = m ((c : Thread nD τ).loc main_arg2) :=
  (W4_arg2 m ρ c).trans (L3_arg2 m ρ c)
theorem L4_arg5 : W4 m ρ c (Proc.devRef .tc main_arg5) = m ((c : Thread nD τ).loc main_arg5) :=
  (W4_arg5 m ρ c).trans (L3_arg5 m ρ c)
theorem L4_arg6 : W4 m ρ c (Proc.devRef .tc main_arg6) = m ((c : Thread nD τ).loc main_arg6) :=
  (W4_arg6 m ρ c).trans (L3_arg6 m ρ c)
theorem L4_arg7 : W4 m ρ c (Proc.devRef .tc main_arg7) = m ((c : Thread nD τ).loc main_arg7) :=
  (W4_arg7 m ρ c).trans (L3_arg7 m ρ c)
theorem L4_arg8 : W4 m ρ c (Proc.devRef .tc main_arg8) = m ((c : Thread nD τ).loc main_arg8) :=
  (W4_arg8 m ρ c).trans (L3_arg8 m ρ c)
theorem L4_v13 : W4 m ρ c (Proc.devRef .tc main_v13) = kS m c :=
  (W4_v13 m ρ c).trans (L3_v13 m ρ c)
theorem L4_v14 : W4 m ρ c (Proc.devRef .tc main_v14) = kD m c :=
  (W4_v14 m ρ c).trans (L3_v14 m ρ c)
theorem L5_arg1 : W5 m ρ c (Proc.devRef .tc main_arg1) = m ((c : Thread nD τ).loc main_arg1) :=
  (W5_arg1 m ρ c).trans (L4_arg1 m ρ c)
theorem L5_arg2 : W5 m ρ c (Proc.devRef .tc main_arg2) = m ((c : Thread nD τ).loc main_arg2) :=
  (W5_arg2 m ρ c).trans (L4_arg2 m ρ c)
theorem L5_arg5 : W5 m ρ c (Proc.devRef .tc main_arg5) = m ((c : Thread nD τ).loc main_arg5) :=
  (W5_arg5 m ρ c).trans (L4_arg5 m ρ c)
theorem L5_arg7 : W5 m ρ c (Proc.devRef .tc main_arg7) = m ((c : Thread nD τ).loc main_arg7) :=
  (W5_arg7 m ρ c).trans (L4_arg7 m ρ c)
theorem L5_arg8 : W5 m ρ c (Proc.devRef .tc main_arg8) = m ((c : Thread nD τ).loc main_arg8) :=
  (W5_arg8 m ρ c).trans (L4_arg8 m ρ c)
theorem L5_v13 : W5 m ρ c (Proc.devRef .tc main_v13) = kS m c :=
  (W5_v13 m ρ c).trans (L4_v13 m ρ c)
theorem L5_v14 : W5 m ρ c (Proc.devRef .tc main_v14) = kD m c :=
  (W5_v14 m ρ c).trans (L4_v14 m ρ c)
theorem L6_arg1 : W6 m ρ c (Proc.devRef .tc main_arg1) = m ((c : Thread nD τ).loc main_arg1) :=
  (W6_arg1 m ρ c).trans (L5_arg1 m ρ c)
theorem L6_arg2 : W6 m ρ c (Proc.devRef .tc main_arg2) = m ((c : Thread nD τ).loc main_arg2) :=
  (W6_arg2 m ρ c).trans (L5_arg2 m ρ c)
theorem L6_arg7 : W6 m ρ c (Proc.devRef .tc main_arg7) = m ((c : Thread nD τ).loc main_arg7) :=
  (W6_arg7 m ρ c).trans (L5_arg7 m ρ c)
theorem L6_arg8 : W6 m ρ c (Proc.devRef .tc main_arg8) = m ((c : Thread nD τ).loc main_arg8) :=
  (W6_arg8 m ρ c).trans (L5_arg8 m ρ c)
theorem L6_v14 : W6 m ρ c (Proc.devRef .tc main_v14) = kD m c :=
  (W6_v14 m ρ c).trans (L5_v14 m ρ c)
theorem L7_arg7 : W7 m ρ c (Proc.devRef .tc main_arg7) = m ((c : Thread nD τ).loc main_arg7) :=
  (W7_arg7 m ρ c).trans (L6_arg7 m ρ c)
theorem L7_v14 : W7 m ρ c (Proc.devRef .tc main_v14) = kD m c :=
  (W7_v14 m ρ c).trans (L6_v14 m ρ c)

/-! ### What each computed array is, boundary by boundary -/

theorem at2_v15 : W2 m ρ c (Proc.devRef .tc main_v15) = h0 m c := by
  rw [W2_v15, W1_arg0, W1_v13]
theorem at3_v25 : W3 m ρ c (Proc.devRef .tc main_v25) = a0 m c := by
  rw [W3_v25, at2_v15, L2_arg1, L2_arg2]
theorem at3_v26 : W3 m ρ c (Proc.devRef .tc main_v26)
    = shapeCast S1x64 (m ((c : Thread nD τ).loc main_arg4)) shapeCasts_S64_S1x64 := by
  rw [W3_v26, L2_arg4]
theorem at4_v27 : W4 m ρ c (Proc.devRef .tc main_v27) = h1 m c := by
  rw [W4_v27, at3_v25, L3_v14, L3_arg3, at3_v26, L3_v13]
theorem at5_v37 : W5 m ρ c (Proc.devRef .tc main_v37) = a1 m c := by
  rw [W5_v37, at4_v27, L4_arg1, L4_arg2]
theorem at5_v38 : W5 m ρ c (Proc.devRef .tc main_v38)
    = shapeCast S1x64 (m ((c : Thread nD τ).loc main_arg6)) shapeCasts_S64_S1x64 := by
  rw [W5_v38, L4_arg6]
theorem at6_v39 : W6 m ρ c (Proc.devRef .tc main_v39) = h2 m c := by
  rw [W6_v39, at5_v37, L5_v14, L5_arg5, at5_v38, L5_v13]
theorem at7_v49 : W7 m ρ c (Proc.devRef .tc main_v49) = a2 m c := by
  rw [W7_v49, at6_v39, L6_arg1, L6_arg2]
theorem at7_v50 : W7 m ρ c (Proc.devRef .tc main_v50)
    = shapeCast S1x32 (m ((c : Thread nD τ).loc main_arg8)) shapeCasts_S32_S1x32 := by
  rw [W7_v50, L6_arg8]
theorem at8_v51 : W8 m ρ c (Proc.devRef .tc main_v51)
    = Cert.Gcn.last (a2 m c) (kD m c) (m ((c : Thread nD τ).loc main_arg7))
        (shapeCast S1x32 (m ((c : Thread nD τ).loc main_arg8)) shapeCasts_S32_S1x32) := by
  rw [W8_v51, at7_v49, L7_v14, L7_arg7, at7_v50]

/-- The result array after the whole program is the network of the argument arrays as launched: the layers composed,
    the columns and rows re-laid by a change of shape being the columns and rows the network is spelt with. -/
theorem result : W8 m ρ c (Proc.devRef .tc main_v51)
    = Cert.Gcn.network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  rw [at8_v51]
  unfold Cert.Gcn.network Cert.Gcn.layers
  rw [← Cert.Gcn.shapeCast_column _ shapeCasts_S100000_S100000x1, ← Cert.Gcn.shapeCast_column _ shapeCasts_S100000_S100000x1,
    ← Cert.Gcn.shapeCast_row64 _ shapeCasts_S64_S1x64, ← Cert.Gcn.shapeCast_row64 _ shapeCasts_S64_S1x64,
    ← Cert.Gcn.shapeCast_row32 _ shapeCasts_S32_S1x32]

end Cert.Gcn.Walk

end
-- ==== Proof.KernelValue.lean ====
/-
  The idealized kernel program's run with its result read: every weakly fair execution terminates, nothing faulting,
  with the result array holding the network of the argument arrays as launched, and the argument arrays unchanged.
-/
import proofs.«141745_j58909771432681_1_alg».proof.Proof.KernelRun
import proofs.«141745_j58909771432681_1_alg».proof.Proof.Walk

set_option maxRecDepth 16384

noncomputable section

namespace Cert.Gcn.KernelValue

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c : Thread nD τ).loc main_v51) = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c =>
    ⟨(h c _ (mem_uc main_v51 (by decide))).trans (Cert.Gcn.Walk.result m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩)
    (Cert.Gcn.KernelRun.run_bufs m ρ)

end Cert.Gcn.KernelValue

end
-- ==== Proof.RefValue.lean ====
/-
  The reference program computes the network.

  The reference is a straight line of array operations. Its run ends with the result at the operations' composed
  term of the argument arrays, and that term is, operation for operation, the network: the degree factors, three
  rounds of message passing, the three layers.
-/
import proofs.«141745_j58909771432681_1_alg».proof.Proof.Gen.ReferenceIdeal.Run
import proofs.«141745_j58909771432681_1_alg».proof.Proof.Network

set_option maxRecDepth 16384

noncomputable section

namespace Cert.Gcn.Ref

open Idealize.ShloMosaic Idealize.ShloMosaic.TcCoe Idealize.SL.Sem Cert.ReferenceIdeal Cert.ReferenceIdeal.Gen

/-- The reference run's result term is the network of the arguments' launch contents. -/
theorem result_eq (m : (ℓ : Loc nD τ sig) → Buf (Elt Ideal) ℓ) (c : Dev nD) :
    Cert.ReferenceIdeal.Value.res_main_v74 (F := Ideal) m c
      = Cert.Gcn.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v74 Cert.Gcn.network Cert.Gcn.layers Cert.Gcn.last Cert.Gcn.hidden
    Cert.Gcn.affine64 Cert.Gcn.scaleRows Cert.Gcn.spread Cert.Gcn.zeros Cert.Gcn.messages Cert.Gcn.degreeFactor
    Cert.Gcn.column Cert.Gcn.row64 Cert.Gcn.row32
  rfl

end Cert.Gcn.Ref

end
-- ==== Proof.lean ====
/-
  A three-layer graph convolution over 100000 nodes and 1600000 edges: the kernel program against the plain array
  program, at the ideal values.

  Both programs count the nodes' out- and in-degrees, turn them into factors rsqrt (max (degree, 1)), and run three
  rounds of: scale each node's row of features by its out-degree factor, gather the source's row along every edge
  and add the rows up at the destinations, scale each node's row by its in-degree factor, multiply by the layer's
  weight matrix and add its bias — clipping at zero after the first two rounds. The kernel program does the
  counting, gathering and adding with the same array operations as the plain program, and the dense part of each
  round — the row scalings, the matrix product, the bias, the clip — in kernels over blocks of 5000 nodes, passing
  the product's operands through a 16-bit float format. At the ideal values a change of format changes nothing, a
  product accumulated into zeros is the product, and a row of the result depends on the same row of the operands
  alone, so block by block the kernels compute exactly the plain program's dense operations: the two results are
  the same function of the argument arrays (`Cert.Gcn.network`), with no use of the inputs' finiteness.

  The three frames: each kernel program's from its run through the four kernels; the plain program's from its run
  with the result dropped. The idealization rewrote no operation, so there is nothing to preserve.
-/
import proofs.«141745_j58909771432681_1_alg».proof.Defs
import proofs.«141745_j58909771432681_1_alg».proof.Proof.Gen.Kernel
import proofs.«141745_j58909771432681_1_alg».proof.Proof.Gen.KernelIdeal
import proofs.«141745_j58909771432681_1_alg».proof.Proof.Gen.ReferenceIdeal
import proofs.«141745_j58909771432681_1_alg».proof.Proof.Gen.ReferenceIdeal.Run
import proofs.«141745_j58909771432681_1_alg».proof.Proof.Gen.Pre_finite_inputs
import proofs.«141745_j58909771432681_1_alg».proof.Proof.KernelFrameP
import proofs.«141745_j58909771432681_1_alg».proof.Proof.KernelIdealFrameP
import proofs.«141745_j58909771432681_1_alg».proof.Proof.KernelValue
import proofs.«141745_j58909771432681_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.GenP.frame m ρ

theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs, from memories agreeing on the arguments, end with the network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Gcn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.Gcn.Ref.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
